-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x32 .f32) (main_arg1 : IVec S1600000 32) (main_arg2 : IVec S1600000 32) (main_arg3 : FVec F S32x64 .f32) (main_arg4 : FVec F S64 .f32) (main_arg5 : FVec F S64x64 .f32) (main_arg6 : FVec F S64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x64 : Shape := ⟨2, ![100000, 64]⟩
abbrev S5000x32 : Shape := ⟨2, ![5000, 32]⟩
abbrev S5000x1 : Shape := ⟨2, ![5000, 1]⟩
abbrev S5000x64 : Shape := ⟨2, ![5000, 64]⟩
abbrev S1700000x64 : Shape := ⟨2, ![1700000, 64]⟩
abbrev S1x64 : Shape := ⟨2, ![1, 64]⟩
abbrev S1x100000x64 : Shape := ⟨3, ![1, 100000, 64]⟩

abbrev nBuf : Space → Nat
  | .hbm => 56
  | .vmem => 24
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S100000, .f32⟩
  | .hbm, ⟨23, _⟩ => ⟨S100000x1, .f32⟩
  | .hbm, ⟨24, _⟩ => ⟨S100000x64, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000x64, .f32⟩
  | .hbm, ⟨34, _⟩ => ⟨S_, .f32⟩
  | .hbm, ⟨35, _⟩ => ⟨S100000x64, .f32⟩
  | .hbm, ⟨36, _⟩ => ⟨S1700000x1, .i32⟩
  | .hbm, ⟨37, _⟩ => ⟨S100000x64, .f32⟩
  | .hbm, ⟨38, _⟩ => ⟨S1x64, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S_, .f32⟩
  | .hbm, ⟨50, _⟩ => ⟨S100000x64, .f32⟩
  | .hbm, ⟨51, _⟩ => ⟨S1700000x1, .i32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S1x100000x64, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x64, .f32⟩
  | .local _ .vmem, ⟨13, _⟩ => ⟨S5000x1, .f32⟩
  | .local _ .vmem, ⟨14, _⟩ => ⟨S5000x1, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S100000x64_S1x100000x64_1_2 : S100000x64.BroadcastsInDim S1x100000x64 (![1, 2] : Fin 2 → Fin S1x100000x64.rank)
  scatter_S100000_S1700000x1_S1700000_n_0_0_1_wf : ScatterDims.WF S100000 S1700000x1 S1700000 [] [0] [0] 1
  dot_S5000x32_S32x64_S5000x64_1_0_0_1_n_n_wf : DotDims.WF S5000x32 S32x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x1.size a ≤ S100000x1.size a
  hwx1_4 : ∀ i : grid1.Coords, EltTy.bits .f32 = 32 ∨ (Rect.block (s := S100000x1) S5000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S5000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v36) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x64 : Shape := ⟨2, ![32, 64]⟩
abbrev S64 : Shape := ⟨1, ![64]⟩
abbrev S64x64 : Shape := ⟨2, ![64, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S100000x1 : Shape := ⟨2, ![100000, 1]⟩
abbrev S1700000x64 : Shape := ⟨2, ![1700000, 64]⟩
abbrev S1x64 : Shape := ⟨2, ![1, 64]⟩
abbrev S1x100000x64 : Shape := ⟨3, ![1, 100000, 64]⟩

abbrev nBuf : Space → Nat
  | .hbm => 72
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .i32⟩
  | .hbm, ⟨2, _⟩ => ⟨S1600000, .i32⟩
  | .hbm, ⟨3, _⟩ => ⟨S32x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S100000, .i32⟩
  | .hbm, ⟨8, _⟩ => ⟨S1700000, .i32⟩
  | .hbm, ⟨9, _⟩ => ⟨S1700000, .i32⟩
  | .hbm, ⟨10, _⟩ => ⟨S_, .f32⟩
  | .hbm, ⟨11, _⟩ => ⟨S1700000, .f32⟩
  | .hbm, ⟨12, _⟩ => ⟨S_, .f32⟩
  | .hbm, ⟨13, _⟩ => ⟨S100000, .f32⟩
  | .hbm, ⟨14, _⟩ => ⟨S1700000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x64, .f32⟩
  | .hbm, ⟨23, _⟩ => ⟨S100000x1, .f32⟩
  | .hbm, ⟨24, _⟩ => ⟨S100000x64, .f32⟩
  | .hbm, ⟨25, _⟩ => ⟨S100000x64, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000x64, .f32⟩
  | .hbm, ⟨35, _⟩ => ⟨S_, .f32⟩
  | .hbm, ⟨36, _⟩ => ⟨S100000x64, .f32⟩
  | .hbm, ⟨37, _⟩ => ⟨S1700000x1, .i32⟩
  | .hbm, ⟨38, _⟩ => ⟨S100000x64, .f32⟩
  | .hbm, ⟨39, _⟩ => ⟨S100000x1, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S100000x64, .f32⟩
  | .hbm, ⟨49, _⟩ => ⟨S100000x1, .f32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1700000, .i32⟩
  | .hbm, ⟨54, _⟩ => ⟨S1700000, .i1⟩
  | .hbm, ⟨55, _⟩ => ⟨S_, .i32⟩
  | .hbm, ⟨56, _⟩ => ⟨S1700000, .i32⟩
  | .hbm, ⟨57, _⟩ => ⟨S1700000, .i32⟩
  | .hbm, ⟨58, _⟩ => ⟨S1700000, .i32⟩
  | .hbm, ⟨59, _⟩ => ⟨S1700000x1, .i32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S100000x1, .f32⟩
  | .hbm, ⟨66, _⟩ => ⟨S100000x64, .f32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1x100000x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_4 : Ref sig .tc := ⟨.hbm, 52, rfl⟩
abbrev main_v37 : Ref sig .tc := ⟨.hbm, 53, rfl⟩
abbrev main_v38 : Ref sig .tc := ⟨.hbm, 54, rfl⟩
abbrev main_c_5 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S100000x64_S1x100000x64_1_2 : S100000x64.BroadcastsInDim S1x100000x64 (![1, 2] : Fin 2 → Fin S1x100000x64.rank)
  scatter_S100000_S1700000x1_S1700000_n_0_0_1_wf : ScatterDims.WF S100000 S1700000x1 S1700000 [] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel program's run, with its result named.

  @main is seven segments: four stretches of host operations around three pipelined regions. The contents of
  every unscoped buffer at each segment boundary are a fold from the launch memory: a host stretch applies its
  operations, a region replaces each of its arrays by what its write-backs leave and keeps every other buffer.
  The run ends with every buffer at the last boundary's contents; here the post keeps, beside the unchanged
  arguments, the contents of the result buffer at that boundary, which the later modules read back through the
  fold to one function of the arguments.
-/
import proofs.«126645_j71339406787240_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the contents of the
    last segment boundary, and the argument arrays end as launched. -/
theorem run_result : θ_run defs (onTc (τ := τ) (main (F := F))) ⟨m, fun _ => 0, ρ⟩ (fun r => ∀ c : Dev nD,
      r.2.mem ((c.tc : Thread nD τ).loc main_v39) = W7 m ρ c (Proc.devRef .tc main_v39)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v39 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.Hand

end
-- ==== Proof.Spec.lean ====
/-
  The three dense stages of the two-layer graph convolution, each as one function of whole arrays, index by index,
  on the extended reals.

  A node is a row `p` of an array of 100000 rows, a feature a column `q`. With `n` a column of per-node scales:
  * `dense0 x w n`  : entry (p, q) is (∑ₖ x[p,k] · w[k,q]) · n[p]            — weigh, then scale by the source norm;
  * `dense1 a nd b w ns` : entry (p, q) is (∑ₖ max(a[p,k] · nd[p] + b[k], 0) · w[k,q]) · ns[p]
                                                                      — scale the aggregate by the destination
                                                                        norm, add the bias, clamp at zero, weigh,
                                                                        scale by the source norm;
  * `scaleBias a nd b` : entry (p, q) is a[p,q] · nd[p] + b[q]                  — scale the aggregate, add the bias.
  The zero of the clamp is kept as the word both programs print; it is never evaluated.
-/
import proofs.«126645_j71339406787240_2_alg».proof.KernelIdeal
import Idealize.ShloMosaic.PureOps.Ideal
import Idealize.ShloMosaic.Lib.ValueIdx

noncomputable section

namespace Cert.KernelIdeal.Spec

open Cert.KernelIdeal Idealize.ShloMosaic Idealize.ShloMosaic.ValueIdx

/-- The clamp's zero, as printed. -/
abbrev zeroW : Elt Ideal .f32 := Ideal.ofBits .f32 0x00000000#32

/-- Entry (p, q) of the first dense stage. -/
def dense0At (x : S100000x32.Idx → Elt Ideal .f32) (w : S32x64.Idx → Elt Ideal .f32) (n : S100000x1.Idx → Elt Ideal .f32)
    (p : Fin 100000) (q : Fin 64) : Elt Ideal .f32 :=
  (∑ k : Fin 32, x (ix2 p k) * w (ix2 k q)) * n (ix2 p (0 : Fin 1))

/-- The first dense stage: the features times the weights, every row scaled by its node's source norm. -/
def dense0 (x : S100000x32.Idx → Elt Ideal .f32) (w : S32x64.Idx → Elt Ideal .f32) (n : S100000x1.Idx → Elt Ideal .f32) :
    S100000x64.Idx → Elt Ideal .f32 :=
  fun i => dense0At x w n ⟨(i 0).val, (i 0).isLt⟩ ⟨(i 1).val, (i 1).isLt⟩

/-- Entry (p, q) of the second dense stage. -/
def dense1At (a : S100000x64.Idx → Elt Ideal .f32) (nd : S100000x1.Idx → Elt Ideal .f32) (b : S1x64.Idx → Elt Ideal .f32)
    (w : S64x64.Idx → Elt Ideal .f32) (ns : S100000x1.Idx → Elt Ideal .f32) (p : Fin 100000) (q : Fin 64) : Elt Ideal .f32 :=
  (∑ k : Fin 64, max (a (ix2 p k) * nd (ix2 p (0 : Fin 1)) + b (ix2 (0 : Fin 1) k)) zeroW * w (ix2 k q)) * ns (ix2 p (0 : Fin 1))

/-- The second dense stage: the first layer's aggregate scaled by the destination norm, biased and clamped at zero,
    then times the second layer's weights, every row scaled by its node's source norm. -/
def dense1 (a : S100000x64.Idx → Elt Ideal .f32) (nd : S100000x1.Idx → Elt Ideal .f32) (b : S1x64.Idx → Elt Ideal .f32)
    (w : S64x64.Idx → Elt Ideal .f32) (ns : S100000x1.Idx → Elt Ideal .f32) : S100000x64.Idx → Elt Ideal .f32 :=
  fun i => dense1At a nd b w ns ⟨(i 0).val, (i 0).isLt⟩ ⟨(i 1).val, (i 1).isLt⟩

/-- Entry (p, q) of the last stage. -/
def scaleBiasAt (a : S100000x64.Idx → Elt Ideal .f32) (nd : S100000x1.Idx → Elt Ideal .f32) (b : S1x64.Idx → Elt Ideal .f32)
    (p : Fin 100000) (q : Fin 64) : Elt Ideal .f32 :=
  a (ix2 p q) * nd (ix2 p (0 : Fin 1)) + b (ix2 (0 : Fin 1) q)

/-- The last stage: the second layer's aggregate scaled by the destination norm, plus the bias. -/
def scaleBias (a : S100000x64.Idx → Elt Ideal .f32) (nd : S100000x1.Idx → Elt Ideal .f32) (b : S1x64.Idx → Elt Ideal .f32) :
    S100000x64.Idx → Elt Ideal .f32 :=
  fun i => scaleBiasAt a nd b ⟨(i 0).val, (i 0).isLt⟩ ⟨(i 1).val, (i 1).isLt⟩

end Cert.KernelIdeal.Spec

end
-- ==== Proof.Payload.lean ====
/-
  What each kernel body stores, read at one entry of its block, on the extended reals.

  A block has 5000 rows. The first body multiplies a 5000×32 block of features by the 32×64 weights and scales row
  `p` by the block's `p`-th norm; the second scales a 5000×64 block of aggregates by the destination norms, adds
  the bias row, clamps at zero, multiplies by the 64×64 weights and scales by the source norms; the third scales
  and adds the bias. A change of float format is the identity here, and a matrix product into a zero accumulator
  is the plain sum over the contracted axis.
-/
import proofs.«126645_j71339406787240_2_alg».proof.Proof.Gen.KernelIdeal.Skeleton
import proofs.«126645_j71339406787240_2_alg».proof.Proof.Spec
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Cert.KernelIdeal.Spec
open Idealize.ShloMosaic Idealize.ShloMosaic.ValueIdx

/-! ## The two matrix products' operand indices -/

local notation "dotA" => dot_S5000x32_S32x64_S5000x64_1_0_0_1_n_n
local notation "dotB" => dot_S5000x64_S64x64_S5000x64_1_0_0_1_n_n

theorem dotA_lhs0 (i : S5000x64.Idx) (r : (dotA).contr.Idx) : ((dotA).lhsIdx i r 0).val = (i 0).val := by
  unfold DotDims.lhsIdx
  rw [dif_neg (show ¬(0 : Fin S5000x32.rank) ∈ (dotA).lhsBatch by decide), dif_pos (show (0 : Fin S5000x32.rank) ∈ (dotA).lhsNonContracting by decide)]
  rfl
theorem dotA_lhs1 (i : S5000x64.Idx) (r : (dotA).contr.Idx) : ((dotA).lhsIdx i r 1).val = (r ⟨0, by decide⟩).val :=
  (dotA).lhsIdx_val_of_single rfl i r
theorem dotA_rhs0 (i : S5000x64.Idx) (r : (dotA).contr.Idx) : ((dotA).rhsIdx i r 0).val = (r ⟨0, by decide⟩).val :=
  (dotA).rhsIdx_val_of_single rfl i r
theorem dotA_rhs1 (i : S5000x64.Idx) (r : (dotA).contr.Idx) : ((dotA).rhsIdx i r 1).val = (i 1).val := by
  unfold DotDims.rhsIdx
  rw [dif_neg (show ¬(1 : Fin S32x64.rank) ∈ (dotA).rhsBatch by decide), dif_pos (show (1 : Fin S32x64.rank) ∈ (dotA).rhsNonContracting by decide)]
  rfl

theorem dotB_lhs0 (i : S5000x64.Idx) (r : (dotB).contr.Idx) : ((dotB).lhsIdx i r 0).val = (i 0).val := by
  unfold DotDims.lhsIdx
  rw [dif_neg (show ¬(0 : Fin S5000x64.rank) ∈ (dotB).lhsBatch by decide), dif_pos (show (0 : Fin S5000x64.rank) ∈ (dotB).lhsNonContracting by decide)]
  rfl
theorem dotB_lhs1 (i : S5000x64.Idx) (r : (dotB).contr.Idx) : ((dotB).lhsIdx i r 1).val = (r ⟨0, by decide⟩).val :=
  (dotB).lhsIdx_val_of_single rfl i r
theorem dotB_rhs0 (i : S5000x64.Idx) (r : (dotB).contr.Idx) : ((dotB).rhsIdx i r 0).val = (r ⟨0, by decide⟩).val :=
  (dotB).rhsIdx_val_of_single rfl i r
theorem dotB_rhs1 (i : S5000x64.Idx) (r : (dotB).contr.Idx) : ((dotB).rhsIdx i r 1).val = (i 1).val := by
  unfold DotDims.rhsIdx
  rw [dif_neg (show ¬(1 : Fin S64x64.rank) ∈ (dotB).rhsBatch by decide), dif_pos (show (1 : Fin S64x64.rank) ∈ (dotB).rhsNonContracting by decide)]
  rfl

/-- The 5000×32 by 32×64 product into zero, at (p, q): the sum over the 32 contracted columns. -/
theorem mmA_apply {φ₁ φ₂ : FTy} (a : FVec Ideal S5000x32 φ₁) (b : FVec Ideal S32x64 φ₂) (p : Fin 5000) (q : Fin 64) :
    FloatOps.matmul dotA none a b (constant S5000x64 .f32 0x00000000#32) (ix2 p q) = ∑ k : Fin 32, a (ix2 p k) * b (ix2 k q) := by
  rw [Ideal.matmul_constant_zero_apply, ← Equiv.sum_comp (contrEquiv1 dotA 32 rfl rfl).symm]
  refine Finset.sum_congr rfl fun k _ => ?_
  have hk := contrEquiv1_symm_val dotA 32 rfl rfl k
  have el : (dotA).lhsIdx (ix2 p q) ((contrEquiv1 dotA 32 rfl rfl).symm k) = ix2 p k := funext fun d => Fin.ext (by
    match d with
    | ⟨0, _⟩ => exact dotA_lhs0 _ _
    | ⟨1, _⟩ => exact (dotA_lhs1 _ _).trans hk)
  have er : (dotA).rhsIdx (ix2 p q) ((contrEquiv1 dotA 32 rfl rfl).symm k) = ix2 k q := funext fun d => Fin.ext (by
    match d with
    | ⟨0, _⟩ => exact (dotA_rhs0 _ _).trans hk
    | ⟨1, _⟩ => exact dotA_rhs1 _ _)
  rw [el, er]

/-- The 5000×64 by 64×64 product into zero, at (p, q): the sum over the 64 contracted columns. -/
theorem mmB_apply {φ₁ φ₂ : FTy} (a : FVec Ideal S5000x64 φ₁) (b : FVec Ideal S64x64 φ₂) (p : Fin 5000) (q : Fin 64) :
    FloatOps.matmul dotB none a b (constant S5000x64 .f32 0x00000000#32) (ix2 p q) = ∑ k : Fin 64, a (ix2 p k) * b (ix2 k q) := by
  rw [Ideal.matmul_constant_zero_apply, ← Equiv.sum_comp (contrEquiv1 dotB 64 rfl rfl).symm]
  refine Finset.sum_congr rfl fun k _ => ?_
  have hk := contrEquiv1_symm_val dotB 64 rfl rfl k
  have el : (dotB).lhsIdx (ix2 p q) ((contrEquiv1 dotB 64 rfl rfl).symm k) = ix2 p k := funext fun d => Fin.ext (by
    match d with
    | ⟨0, _⟩ => exact dotB_lhs0 _ _
    | ⟨1, _⟩ => exact (dotB_lhs1 _ _).trans hk)
  have er : (dotB).rhsIdx (ix2 p q) ((contrEquiv1 dotB 64 rfl rfl).symm k) = ix2 k q := funext fun d => Fin.ext (by
    match d with
    | ⟨0, _⟩ => exact (dotB_rhs0 _ _).trans hk
    | ⟨1, _⟩ => exact dotB_rhs1 _ _)
  rw [el, er]

/-! ## A column and a row spread over the block -/

/-- A 5000×1 column spread over 64 columns: entry (p, q) is the column's entry p. -/
theorem spreadCol_apply {α : Type} (v : S5000x1.Idx → α) (p : Fin 5000) (q : Fin 64) :
    broadcastTo S5000x64 v broadcasts_S5000x1_S5000x64 (ix2 p q) = v (ix2 p (0 : Fin 1)) :=
  broadcastTo_apply v broadcasts_S5000x1_S5000x64 (ix2 p q) (ix2 p (0 : Fin 1)) (fun a => by
    match a with
    | ⟨0, _⟩ => show p.val = if (5000 : Nat) = 1 then 0 else p.val; rw [if_neg (by decide)]
    | ⟨1, _⟩ => show (0 : Nat) = if (1 : Nat) = 1 then 0 else q.val; rw [if_pos rfl])

/-- A 1×64 row spread over 5000 rows: entry (p, q) is the row's entry q. -/
theorem spreadRow_apply {α : Type} (v : S1x64.Idx → α) (p : Fin 5000) (q : Fin 64) :
    broadcastTo S5000x64 v broadcasts_S1x64_S5000x64 (ix2 p q) = v (ix2 (0 : Fin 1) q) :=
  broadcastTo_apply v broadcasts_S1x64_S5000x64 (ix2 p q) (ix2 (0 : Fin 1) q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-! ## The three stored values at an entry -/

/-- The first body's stored value at (p, q): the block's row p times the weights' column q, scaled by the block's norm p. -/
theorem pay0_apply (x0 : Vec Ideal S5000x32 .f32) (x1 : Vec Ideal S32x64 .f32) (x2 : Vec Ideal S5000x1 .f32) (p : Fin 5000) (q : Fin 64) :
    k0_pay1 (F := Ideal) x0 x1 x2 (ix2 p q) = (∑ k : Fin 32, x0 (ix2 p k) * x1 (ix2 k q)) * x2 (ix2 p (0 : Fin 1)) := by
  unfold k0_pay1
  simp only [shapeCast_self]
  show (FloatOps.matmul (F := Ideal) dotA none (truncf (F := Ideal) .bf16 x0 bitsLt_bf16_f32) (truncf (F := Ideal) .bf16 x1 bitsLt_bf16_f32)
        (constant (F := Ideal) S5000x64 .f32 0x00000000#32) (ix2 p q) : Ideal .f32)
      * broadcastTo S5000x64 x2 broadcasts_S5000x1_S5000x64 (ix2 p q) = _
  rw [mmA_apply, spreadCol_apply]
  rfl

/-- The second body's stored value at (p, q). -/
theorem pay1_apply (x0 : Vec Ideal S5000x64 .f32) (x1 : Vec Ideal S5000x1 .f32) (x2 : Vec Ideal S1x64 .f32) (x3 : Vec Ideal S64x64 .f32)
    (x4 : Vec Ideal S5000x1 .f32) (p : Fin 5000) (q : Fin 64) :
    k1_pay1 (F := Ideal) x0 x1 x2 x3 x4 (ix2 p q)
      = (∑ k : Fin 64, max (x0 (ix2 p k) * x1 (ix2 p (0 : Fin 1)) + x2 (ix2 (0 : Fin 1) k)) zeroW * x3 (ix2 k q)) * x4 (ix2 p (0 : Fin 1)) := by
  unfold k1_pay1
  simp only [shapeCast_self]
  show (FloatOps.matmul (F := Ideal) dotB none
        (truncf (F := Ideal) .bf16 (maximumf (F := Ideal) (addf (F := Ideal) (mulf (F := Ideal) x0 (broadcastTo S5000x64 x1 broadcasts_S5000x1_S5000x64)) (broadcastTo S5000x64 x2 broadcasts_S1x64_S5000x64))
          (broadcast S5000x64 (Scalar.ofBits (F := Ideal) .f32 0x00000000#32))) bitsLt_bf16_f32)
        (truncf (F := Ideal) .bf16 x3 bitsLt_bf16_f32) (constant (F := Ideal) S5000x64 .f32 0x00000000#32) (ix2 p q) : Ideal .f32)
      * broadcastTo S5000x64 x4 broadcasts_S5000x1_S5000x64 (ix2 p q) = _
  rw [mmB_apply, spreadCol_apply]
  refine congrArg (· * x4 (ix2 p (0 : Fin 1))) (Finset.sum_congr rfl fun k _ => ?_)
  show max (x0 (ix2 p k) * broadcastTo S5000x64 x1 broadcasts_S5000x1_S5000x64 (ix2 p k) + broadcastTo S5000x64 x2 broadcasts_S1x64_S5000x64 (ix2 p k)) zeroW
      * x3 (ix2 k q) = _
  rw [spreadCol_apply, spreadRow_apply]

/-- The third body's stored value at (p, q). -/
theorem pay2_apply (x0 : Vec Ideal S5000x64 .f32) (x1 : Vec Ideal S5000x1 .f32) (x2 : Vec Ideal S1x64 .f32) (p : Fin 5000) (q : Fin 64) :
    k2_pay1 (F := Ideal) x0 x1 x2 (ix2 p q) = x0 (ix2 p q) * x1 (ix2 p (0 : Fin 1)) + x2 (ix2 (0 : Fin 1) q) := by
  unfold k2_pay1
  simp only [shapeCast_self]
  show x0 (ix2 p q) * broadcastTo S5000x64 x1 broadcasts_S5000x1_S5000x64 (ix2 p q) + broadcastTo S5000x64 x2 broadcasts_S1x64_S5000x64 (ix2 p q) = _
  rw [spreadCol_apply, spreadRow_apply]

/-! ## A block of 5000 rows of each dense stage

The kernel's value at entry (p, q) of the block that starts at row `T · 5000` is the whole-array stage at row
`T · 5000 + p`, column q, once each loaded block is the matching rows of its array (and each unblocked operand the
whole array). -/

theorem dense0_rows (X : S100000x32.Idx → Elt Ideal .f32) (W : S32x64.Idx → Elt Ideal .f32) (N : S100000x1.Idx → Elt Ideal .f32)
    (x0 : Vec Ideal S5000x32 .f32) (x1 : Vec Ideal S32x64 .f32) (x2 : Vec Ideal S5000x1 .f32) (T : Nat)
    (h0 : ∀ (p : Fin 5000) (k : Fin 32) (P : Fin 100000), P.val = T * 5000 + p.val → x0 (ix2 p k) = X (ix2 P k))
    (h1 : ∀ (k : Fin 32) (q : Fin 64), x1 (ix2 k q) = W (ix2 k q))
    (h2 : ∀ (p : Fin 5000) (P : Fin 100000), P.val = T * 5000 + p.val → x2 (ix2 p (0 : Fin 1)) = N (ix2 P (0 : Fin 1)))
    (p : Fin 5000) (q : Fin 64) (i : S100000x64.Idx) (hi0 : (i 0).val = T * 5000 + p.val) (hi1 : (i 1).val = q.val) :
    k0_pay1 (F := Ideal) x0 x1 x2 (ix2 p q) = dense0 X W N i := by
  rw [pay0_apply]
  unfold dense0 dense0At
  have hq : (⟨(i 1).val, (i 1).isLt⟩ : Fin 64) = q := Fin.ext hi1
  rw [hq, h2 p ⟨(i 0).val, (i 0).isLt⟩ hi0]
  refine congrArg (· * N (ix2 (⟨(i 0).val, (i 0).isLt⟩ : Fin 100000) (0 : Fin 1))) (Finset.sum_congr rfl fun k _ => ?_)
  rw [h0 p k ⟨(i 0).val, (i 0).isLt⟩ hi0, h1 k q]

theorem dense1_rows (A : S100000x64.Idx → Elt Ideal .f32) (ND : S100000x1.Idx → Elt Ideal .f32) (B : S1x64.Idx → Elt Ideal .f32)
    (W : S64x64.Idx → Elt Ideal .f32) (NS : S100000x1.Idx → Elt Ideal .f32)
    (x0 : Vec Ideal S5000x64 .f32) (x1 : Vec Ideal S5000x1 .f32) (x2 : Vec Ideal S1x64 .f32) (x3 : Vec Ideal S64x64 .f32) (x4 : Vec Ideal S5000x1 .f32) (T : Nat)
    (h0 : ∀ (p : Fin 5000) (k : Fin 64) (P : Fin 100000), P.val = T * 5000 + p.val → x0 (ix2 p k) = A (ix2 P k))
    (h1 : ∀ (p : Fin 5000) (P : Fin 100000), P.val = T * 5000 + p.val → x1 (ix2 p (0 : Fin 1)) = ND (ix2 P (0 : Fin 1)))
    (h2 : ∀ (k : Fin 64), x2 (ix2 (0 : Fin 1) k) = B (ix2 (0 : Fin 1) k))
    (h3 : ∀ (k : Fin 64) (q : Fin 64), x3 (ix2 k q) = W (ix2 k q))
    (h4 : ∀ (p : Fin 5000) (P : Fin 100000), P.val = T * 5000 + p.val → x4 (ix2 p (0 : Fin 1)) = NS (ix2 P (0 : Fin 1)))
    (p : Fin 5000) (q : Fin 64) (i : S100000x64.Idx) (hi0 : (i 0).val = T * 5000 + p.val) (hi1 : (i 1).val = q.val) :
    k1_pay1 (F := Ideal) x0 x1 x2 x3 x4 (ix2 p q) = dense1 A ND B W NS i := by
  rw [pay1_apply]
  unfold dense1 dense1At
  have hq : (⟨(i 1).val, (i 1).isLt⟩ : Fin 64) = q := Fin.ext hi1
  rw [hq, h4 p ⟨(i 0).val, (i 0).isLt⟩ hi0, h1 p ⟨(i 0).val, (i 0).isLt⟩ hi0]
  refine congrArg (· * NS (ix2 (⟨(i 0).val, (i 0).isLt⟩ : Fin 100000) (0 : Fin 1))) (Finset.sum_congr rfl fun k _ => ?_)
  rw [h0 p k ⟨(i 0).val, (i 0).isLt⟩ hi0, h2 k, h3 k q]

theorem scaleBias_rows (A : S100000x64.Idx → Elt Ideal .f32) (ND : S100000x1.Idx → Elt Ideal .f32) (B : S1x64.Idx → Elt Ideal .f32)
    (x0 : Vec Ideal S5000x64 .f32) (x1 : Vec Ideal S5000x1 .f32) (x2 : Vec Ideal S1x64 .f32) (T : Nat)
    (h0 : ∀ (p : Fin 5000) (k : Fin 64) (P : Fin 100000), P.val = T * 5000 + p.val → x0 (ix2 p k) = A (ix2 P k))
    (h1 : ∀ (p : Fin 5000) (P : Fin 100000), P.val = T * 5000 + p.val → x1 (ix2 p (0 : Fin 1)) = ND (ix2 P (0 : Fin 1)))
    (h2 : ∀ (k : Fin 64), x2 (ix2 (0 : Fin 1) k) = B (ix2 (0 : Fin 1) k))
    (p : Fin 5000) (q : Fin 64) (i : S100000x64.Idx) (hi0 : (i 0).val = T * 5000 + p.val) (hi1 : (i 1).val = q.val) :
    k2_pay1 (F := Ideal) x0 x1 x2 (ix2 p q) = scaleBias A ND B i := by
  rw [pay2_apply]
  unfold scaleBias scaleBiasAt
  have hq : (⟨(i 1).val, (i 1).isLt⟩ : Fin 64) = q := Fin.ext hi1
  rw [hq, h0 p q ⟨(i 0).val, (i 0).isLt⟩ hi0, h1 p ⟨(i 0).val, (i 0).isLt⟩ hi0, h2 q]

end Cert.KernelIdeal.Pay

end
-- ==== Proof.Blocks0.lean ====
/-
  Region 0 (the first dense stage), from blocks to the array.

  The grid has 20 points; at point `t` the features' window holds rows `5000 t … 5000 t + 4999`, the norms' window the
  same rows of the norm column, the weights' window the whole weight matrix, and the output window writes back the
  same rows of the result. So what point `t` writes back is rows `5000 t …` of `dense0` of the three arrays as the
  region finds them, the twenty blocks tile the array, and the array ends holding `dense0` of them.
-/
import proofs.«126645_j71339406787240_2_alg».proof.Proof.Gen.KernelIdeal.Frame
import proofs.«126645_j71339406787240_2_alg».proof.Proof.Payload
import Idealize.ShloMosaic.Lib.Pipeline.Value

set_option maxRecDepth 16384

noncomputable section

namespace Cert.KernelIdeal.Blocks

open Cert.KernelIdeal Cert.KernelIdeal.Gen Cert.KernelIdeal.Spec Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps of region 0, decided over its grid: the row-blocked windows sit at block row `t`, the
    weights' window at the origin. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The features' block at point `t` is rows `5000 t …` of the features. -/
theorem iblk0_0_apply (c : Dev nD) (t : Fin cfg0.N) (y : S5000x32.Idx) (k : S100000x32.Idx)
    (hk0 : (k 0).val = t.val * 5000 + (y 0).val) (hk1 : (k 1).val = (y 1).val) :
    (iblk0 V c 0 t : Vec Ideal S5000x32 .f32) y = (V c main_arg0 : S100000x32.Idx → Elt Ideal .f32) k := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t (0 : Fin 2) * 5000 + 1 * (y 0).val = (k 0).val; rw [e0, hk0]; omega
  | ⟨1, _⟩ => show win0_0.index t (1 : Fin 2) * 32 + 1 * (y 1).val = (k 1).val; rw [e1, hk1]; omega

/-- The weights' block at every point is the weights. -/
theorem iblk0_1_apply (c : Dev nD) (t : Fin cfg0.N) (y : S32x64.Idx) :
    (iblk0 V c 1 t : Vec Ideal S32x64 .f32) y = (V c main_arg3 : S32x64.Idx → Elt Ideal .f32) y := by
  obtain ⟨-, -, e0, e1, -⟩ := idx0 t
  unfold iblk0
  rw [View.read_apply]
  show V c main_arg3 _ = V c main_arg3 _
  refine congrArg (V c main_arg3) (funext fun a => Fin.ext ?_)
  match a with
  | ⟨0, _⟩ => show win0_1.index t (0 : Fin 2) * 32 + 1 * (y 0).val = (y 0).val; rw [e0]; omega
  | ⟨1, _⟩ => show win0_1.index t (1 : Fin 2) * 64 + 1 * (y 1).val = (y 1).val; rw [e1]; omega

/-- The norms' block at point `t` is rows `5000 t …` of the norm column. -/
theorem iblk0_2_apply (c : Dev nD) (t : Fin cfg0.N) (y : S5000x1.Idx) (k : S100000x1.Idx)
    (hk0 : (k 0).val = t.val * 5000 + (y 0).val) (hk1 : (k 1).val = (y 1).val) :
    (iblk0 V c 2 t : Vec Ideal S5000x1 .f32) y = (V c main_v11 : S100000x1.Idx → Elt Ideal .f32) k := by
  obtain ⟨-, -, -, -, e0, e1, -⟩ := idx0 t
  unfold iblk0
  rw [View.read_apply]
  show V c main_v11 _ = V c main_v11 _
  refine congrArg (V c main_v11) (funext fun a => Fin.ext ?_)
  match a with
  | ⟨0, _⟩ => show win0_2.index t (0 : Fin 2) * 5000 + 1 * (y 0).val = (k 0).val; rw [e0, hk0]; omega
  | ⟨1, _⟩ => show win0_2.index t (1 : Fin 2) * 1 + 1 * (y 1).val = (k 1).val; rw [e1, hk1]; omega

/-- What point `t` writes back is block `t` of `dense0` of the arrays as the region finds them. -/
theorem flushed0 (c : Dev nD) (t : Fin cfg0.N) :
    (dat0 V c).flushed 3 t = ((cfg0.win 3).blk t).view.read (Elt Ideal)
      (dense0 (V c main_arg0) (V c main_arg3) (V c main_v11)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz, View.ld_unit_zero (S := S5000x1) hz]
  obtain ⟨-, -, -, -, -, -, e0, e1⟩ := idx0 t
  funext j
  obtain ⟨p, q, rfl⟩ : ∃ (p : Fin 5000) (q : Fin 64), j = ix2 p q := ⟨j 0, j 1, eq_ix2 j⟩
  rw [View.read_apply]
  refine dense0_rows (V c main_arg0) (V c main_arg3) (V c main_v11) (iblk0 V c 0 t) (iblk0 V c 1 t) (iblk0 V c 2 t) t.val
    (fun p k P hP => iblk0_0_apply V c t (ix2 p k) (ix2 P k) hP rfl)
    (fun k q => iblk0_1_apply V c t (ix2 k q))
    (fun p P hP => iblk0_2_apply V c t (ix2 p (0 : Fin 1)) (ix2 P (0 : Fin 1)) hP rfl)
    p q _ ?_ ?_
  · show win0_3.index t (0 : Fin 2) * 5000 + 1 * p.val = t.val * 5000 + p.val; rw [e0]; omega
  · show win0_3.index t (1 : Fin 2) * 64 + 1 * q.val = q.val; rw [e1]; omega

/-- An index of the result array is in point `t`'s block iff its row is among the block's 5000. -/
theorem mem_blk0 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v14).slice (win0_3.rect t)).set ↔ _
  rw [View.set_slice_whole, Rect.mem_set_unit]
  exact Iff.rfl

/-- Region 0's result array after the region: `dense0` of its three input arrays as the region finds them. -/
theorem final0 (c : Dev nD) : (dat0 V c).arrAt 3 cfg0.N = dense0 (V c main_arg0) (V c main_arg3) (V c main_v11) :=
  (dat0 V c).arrAt_eq_of_cover 3 _ (fun t _ => flushed0 V c t) fun i => by
    have hi0 : (i 0).val < 100000 := (i 0).isLt
    have hi1 : (i 1).val < 64 := (i 1).isLt
    have hN : cfg0.N = 20 := N_0
    refine ⟨⟨(i 0).val / 5000, by rw [hN]; omega⟩, flush0_3 _, ?_⟩
    rw [mem_blk0]
    obtain ⟨-, -, -, -, -, -, e0, e1⟩ := idx0 ⟨(i 0).val / 5000, by rw [hN]; omega⟩
    intro a
    match a with
    | ⟨0, _⟩ => show win0_3.index _ (0 : Fin 2) * 5000 ≤ (i 0).val ∧ (i 0).val < win0_3.index _ (0 : Fin 2) * 5000 + 5000; rw [e0]; show (i 0).val / 5000 * 5000 ≤ _ ∧ _ < (i 0).val / 5000 * 5000 + 5000; omega
    | ⟨1, _⟩ => show win0_3.index _ (1 : Fin 2) * 64 ≤ (i 1).val ∧ (i 1).val < win0_3.index _ (1 : Fin 2) * 64 + 64; rw [e1]; omega

end Cert.KernelIdeal.Blocks

end
-- ==== Proof.Blocks1.lean ====
/-
  Region 1 (the second dense stage), from blocks to the array.

  At point `t` of the 20 the aggregate's window and the two norm windows hold rows `5000 t … 5000 t + 4999` of
  their arrays, the bias row's and the weights' windows hold those arrays whole, and the output window writes back
  the same rows of the result. So what point `t` writes back is rows `5000 t …` of `dense1` of the five arrays as the
  region finds them; the blocks tile the array.
-/
import proofs.«126645_j71339406787240_2_alg».proof.Proof.Gen.KernelIdeal.Frame
import proofs.«126645_j71339406787240_2_alg».proof.Proof.Payload
import proofs.«126645_j71339406787240_2_alg».proof.Proof.Blocks0
import Idealize.ShloMosaic.Lib.Pipeline.Value

set_option maxRecDepth 16384

noncomputable section

namespace Cert.KernelIdeal.Blocks

open Cert.KernelIdeal Cert.KernelIdeal.Gen Cert.KernelIdeal.Spec Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx1_0 : ∀ t : Fin cfg1.N, win1_0.index t (0 : Fin 2) = t.val ∧ win1_0.index t (1 : Fin 2) = 0 :=
  (by decide +kernel : ∀ t : Fin grid1.N, _)
/-- The aggregate's block at point `t` is rows `5000 t …` of the aggregate. -/
theorem iblk1_0_apply (c : Dev nD) (t : Fin cfg1.N) (y : S5000x64.Idx) (k : S100000x64.Idx)
    (hk0 : (k 0).val = t.val * 5000 + (y 0).val) (hk1 : (k 1).val = (y 1).val) :
    (iblk1 V c 0 t : Vec Ideal S5000x64 .f32) y = (V c main_v24 : S100000x64.Idx → Elt Ideal .f32) k := by
  have e0 := (idx1_0 t).1
  have e1 := (idx1_0 t).2
  unfold iblk1
  rw [View.read_apply]
  show V c main_v24 _ = V c main_v24 _
  refine congrArg (V c main_v24) (funext fun a => Fin.ext ?_)
  match a with
  | ⟨0, _⟩ => show win1_0.index t (0 : Fin 2) * 5000 + 1 * (y 0).val = (k 0).val; rw [e0, hk0]; omega
  | ⟨1, _⟩ => show win1_0.index t (1 : Fin 2) * 64 + 1 * (y 1).val = (k 1).val; rw [e1, hk1]; omega
theorem idx1_1 : ∀ t : Fin cfg1.N, win1_1.index t (0 : Fin 2) = t.val ∧ win1_1.index t (1 : Fin 2) = 0 :=
  (by decide +kernel : ∀ t : Fin grid1.N, _)
/-- The destination norms' block at point `t` is rows `5000 t …` of that column. -/
theorem iblk1_1_apply (c : Dev nD) (t : Fin cfg1.N) (y : S5000x1.Idx) (k : S100000x1.Idx)
    (hk0 : (k 0).val = t.val * 5000 + (y 0).val) (hk1 : (k 1).val = (y 1).val) :
    (iblk1 V c 1 t : Vec Ideal S5000x1 .f32) y = (V c main_v13 : S100000x1.Idx → Elt Ideal .f32) k := by
  have e0 := (idx1_1 t).1
  have e1 := (idx1_1 t).2
  unfold iblk1
  rw [View.read_apply]
  show V c main_v13 _ = V c main_v13 _
  refine congrArg (V c main_v13) (funext fun a => Fin.ext ?_)
  match a with
  | ⟨0, _⟩ => show win1_1.index t (0 : Fin 2) * 5000 + 1 * (y 0).val = (k 0).val; rw [e0, hk0]; omega
  | ⟨1, _⟩ => show win1_1.index t (1 : Fin 2) * 1 + 1 * (y 1).val = (k 1).val; rw [e1, hk1]; omega
theorem idx1_2 : ∀ t : Fin cfg1.N, win1_2.index t (0 : Fin 2) = 0 ∧ win1_2.index t (1 : Fin 2) = 0 :=
  (by decide +kernel : ∀ t : Fin grid1.N, _)
/-- The bias row's block at every point is the bias row. -/
theorem iblk1_2_apply (c : Dev nD) (t : Fin cfg1.N) (y : S1x64.Idx) :
    (iblk1 V c 2 t : Vec Ideal S1x64 .f32) y = (V c main_v25 : S1x64.Idx → Elt Ideal .f32) y := by
  have e0 := (idx1_2 t).1
  have e1 := (idx1_2 t).2
  unfold iblk1
  rw [View.read_apply]
  show V c main_v25 _ = V c main_v25 _
  refine congrArg (V c main_v25) (funext fun a => Fin.ext ?_)
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega
theorem idx1_3 : ∀ t : Fin cfg1.N, win1_3.index t (0 : Fin 2) = 0 ∧ win1_3.index t (1 : Fin 2) = 0 :=
  (by decide +kernel : ∀ t : Fin grid1.N, _)
/-- The weights' block at every point is the weights. -/
theorem iblk1_3_apply (c : Dev nD) (t : Fin cfg1.N) (y : S64x64.Idx) :
    (iblk1 V c 3 t : Vec Ideal S64x64 .f32) y = (V c main_arg5 : S64x64.Idx → Elt Ideal .f32) y := by
  have e0 := (idx1_3 t).1
  have e1 := (idx1_3 t).2
  unfold iblk1
  rw [View.read_apply]
  show V c main_arg5 _ = V c main_arg5 _
  refine congrArg (V c main_arg5) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega
theorem idx1_4 : ∀ t : Fin cfg1.N, win1_4.index t (0 : Fin 2) = t.val ∧ win1_4.index t (1 : Fin 2) = 0 :=
  (by decide +kernel : ∀ t : Fin grid1.N, _)
/-- The source norms' block at point `t` is rows `5000 t …` of that column. -/
theorem iblk1_4_apply (c : Dev nD) (t : Fin cfg1.N) (y : S5000x1.Idx) (k : S100000x1.Idx)
    (hk0 : (k 0).val = t.val * 5000 + (y 0).val) (hk1 : (k 1).val = (y 1).val) :
    (iblk1 V c 4 t : Vec Ideal S5000x1 .f32) y = (V c main_v11 : S100000x1.Idx → Elt Ideal .f32) k := by
  have e0 := (idx1_4 t).1
  have e1 := (idx1_4 t).2
  unfold iblk1
  rw [View.read_apply]
  show V c main_v11 _ = V c main_v11 _
  refine congrArg (V c main_v11) (funext fun a => Fin.ext ?_)
  match a with
  | ⟨0, _⟩ => show win1_4.index t (0 : Fin 2) * 5000 + 1 * (y 0).val = (k 0).val; rw [e0, hk0]; omega
  | ⟨1, _⟩ => show win1_4.index t (1 : Fin 2) * 1 + 1 * (y 1).val = (k 1).val; rw [e1, hk1]; omega
theorem idx1_5 : ∀ t : Fin cfg1.N, win1_5.index t (0 : Fin 2) = t.val ∧ win1_5.index t (1 : Fin 2) = 0 :=
  (by decide +kernel : ∀ t : Fin grid1.N, _)

/-- What point `t` writes back is block `t` of `dense1` of the arrays as the region finds them. -/
theorem flushed1 (c : Dev nD) (t : Fin cfg1.N) :
    (dat1 V c).flushed 5 t = ((cfg1.win 5).blk t).view.read (Elt Ideal)
      (dense1 (V c main_v24) (V c main_v13) (V c main_v25) (V c main_arg5) (V c main_v11)) := by
  show (cfg1.win 5).cut (grid1.coords t) ((dat1 V c).after 5 t) = _
  rw [after1_5]
  unfold out1_5
  rw [View.canon_unit_zero hz]
  simp only [View.ld_unit_zero (S := S5000x64) hz, View.ld_unit_zero (S := S5000x1) hz, View.ld_unit_zero (S := S1x64) hz, View.ld_unit_zero (S := S64x64) hz]
  obtain ⟨e0, e1⟩ := idx1_5 t
  funext j
  obtain ⟨p, q, rfl⟩ : ∃ (p : Fin 5000) (q : Fin 64), j = ix2 p q := ⟨j 0, j 1, eq_ix2 j⟩
  rw [View.read_apply]
  refine dense1_rows (V c main_v24) (V c main_v13) (V c main_v25) (V c main_arg5) (V c main_v11)
    (iblk1 V c 0 t) (iblk1 V c 1 t) (iblk1 V c 2 t) (iblk1 V c 3 t) (iblk1 V c 4 t) t.val
    (fun p k P hP => iblk1_0_apply V c t (ix2 p k) (ix2 P k) hP rfl)
    (fun p P hP => iblk1_1_apply V c t (ix2 p (0 : Fin 1)) (ix2 P (0 : Fin 1)) hP rfl)
    (fun k => iblk1_2_apply V c t (ix2 (0 : Fin 1) k))
    (fun k q => iblk1_3_apply V c t (ix2 k q))
    (fun p P hP => iblk1_4_apply V c t (ix2 p (0 : Fin 1)) (ix2 P (0 : Fin 1)) hP rfl)
    p q _ ?_ ?_
  · show win1_5.index t (0 : Fin 2) * 5000 + 1 * p.val = t.val * 5000 + p.val; rw [e0]; omega
  · show win1_5.index t (1 : Fin 2) * 64 + 1 * q.val = q.val; rw [e1]; omega

/-- An index of the result array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v26).slice (win1_5.rect t)).set ↔ _
  rw [View.set_slice_whole, Rect.mem_set_unit]
  exact Iff.rfl

/-- The twenty blocks tile the result array: row `r` is in the block of point `r / 5000`. So the array ends holding the stage. -/
theorem final1 (c : Dev nD) : (dat1 V c).arrAt 5 cfg1.N = dense1 (V c main_v24) (V c main_v13) (V c main_v25) (V c main_arg5) (V c main_v11) :=
  (dat1 V c).arrAt_eq_of_cover 5 _ (fun t _ => flushed1 V c t) fun i => by
    have hi0 : (i 0).val < 100000 := (i 0).isLt
    have hi1 : (i 1).val < 64 := (i 1).isLt
    have hN : cfg1.N = 20 := N_1
    refine ⟨⟨(i 0).val / 5000, by rw [hN]; omega⟩, flush1_5 _, ?_⟩
    rw [mem_blk1]
    obtain ⟨e0, e1⟩ := idx1_5 ⟨(i 0).val / 5000, by rw [hN]; omega⟩
    intro a
    match a with
    | ⟨0, _⟩ => show win1_5.index _ (0 : Fin 2) * 5000 ≤ (i 0).val ∧ (i 0).val < win1_5.index _ (0 : Fin 2) * 5000 + 5000; rw [e0]; show (i 0).val / 5000 * 5000 ≤ _ ∧ _ < (i 0).val / 5000 * 5000 + 5000; omega
    | ⟨1, _⟩ => show win1_5.index _ (1 : Fin 2) * 64 ≤ (i 1).val ∧ (i 1).val < win1_5.index _ (1 : Fin 2) * 64 + 64; rw [e1]; omega

end Cert.KernelIdeal.Blocks

end
-- ==== Proof.Blocks2.lean ====
/-
  Region 2 (the last stage), from blocks to the array.

  At point `t` of the 20 the aggregate's window and the norm window hold rows `5000 t … 5000 t + 4999` of their
  arrays, the bias row's window holds the row whole, and the output window writes back the same rows of the result:
  rows `5000 t …` of `scaleBias` of the three arrays as the region finds them; the blocks tile the array.
-/
import proofs.«126645_j71339406787240_2_alg».proof.Proof.Gen.KernelIdeal.Frame
import proofs.«126645_j71339406787240_2_alg».proof.Proof.Payload
import proofs.«126645_j71339406787240_2_alg».proof.Proof.Blocks0
import Idealize.ShloMosaic.Lib.Pipeline.Value

set_option maxRecDepth 16384

noncomputable section

namespace Cert.KernelIdeal.Blocks

open Cert.KernelIdeal Cert.KernelIdeal.Gen Cert.KernelIdeal.Spec Cert.KernelIdeal.Pay
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx2_0 : ∀ t : Fin cfg2.N, win2_0.index t (0 : Fin 2) = t.val ∧ win2_0.index t (1 : Fin 2) = 0 :=
  (by decide +kernel : ∀ t : Fin grid2.N, _)
/-- The aggregate's block at point `t` is rows `5000 t …` of the aggregate. -/
theorem iblk2_0_apply (c : Dev nD) (t : Fin cfg2.N) (y : S5000x64.Idx) (k : S100000x64.Idx)
    (hk0 : (k 0).val = t.val * 5000 + (y 0).val) (hk1 : (k 1).val = (y 1).val) :
    (iblk2 V c 0 t : Vec Ideal S5000x64 .f32) y = (V c main_v36 : S100000x64.Idx → Elt Ideal .f32) k := by
  have e0 := (idx2_0 t).1
  have e1 := (idx2_0 t).2
  unfold iblk2
  rw [View.read_apply]
  show V c main_v36 _ = V c main_v36 _
  refine congrArg (V c main_v36) (funext fun a => Fin.ext ?_)
  match a with
  | ⟨0, _⟩ => show win2_0.index t (0 : Fin 2) * 5000 + 1 * (y 0).val = (k 0).val; rw [e0, hk0]; omega
  | ⟨1, _⟩ => show win2_0.index t (1 : Fin 2) * 64 + 1 * (y 1).val = (k 1).val; rw [e1, hk1]; omega
theorem idx2_1 : ∀ t : Fin cfg2.N, win2_1.index t (0 : Fin 2) = t.val ∧ win2_1.index t (1 : Fin 2) = 0 :=
  (by decide +kernel : ∀ t : Fin grid2.N, _)
/-- The destination norms' block at point `t` is rows `5000 t …` of that column. -/
theorem iblk2_1_apply (c : Dev nD) (t : Fin cfg2.N) (y : S5000x1.Idx) (k : S100000x1.Idx)
    (hk0 : (k 0).val = t.val * 5000 + (y 0).val) (hk1 : (k 1).val = (y 1).val) :
    (iblk2 V c 1 t : Vec Ideal S5000x1 .f32) y = (V c main_v13 : S100000x1.Idx → Elt Ideal .f32) k := by
  have e0 := (idx2_1 t).1
  have e1 := (idx2_1 t).2
  unfold iblk2
  rw [View.read_apply]
  show V c main_v13 _ = V c main_v13 _
  refine congrArg (V c main_v13) (funext fun a => Fin.ext ?_)
  match a with
  | ⟨0, _⟩ => show win2_1.index t (0 : Fin 2) * 5000 + 1 * (y 0).val = (k 0).val; rw [e0, hk0]; omega
  | ⟨1, _⟩ => show win2_1.index t (1 : Fin 2) * 1 + 1 * (y 1).val = (k 1).val; rw [e1, hk1]; omega
theorem idx2_2 : ∀ t : Fin cfg2.N, win2_2.index t (0 : Fin 2) = 0 ∧ win2_2.index t (1 : Fin 2) = 0 :=
  (by decide +kernel : ∀ t : Fin grid2.N, _)
/-- The bias row's block at every point is the bias row. -/
theorem iblk2_2_apply (c : Dev nD) (t : Fin cfg2.N) (y : S1x64.Idx) :
    (iblk2 V c 2 t : Vec Ideal S1x64 .f32) y = (V c main_v37 : S1x64.Idx → Elt Ideal .f32) y := by
  have e0 := (idx2_2 t).1
  have e1 := (idx2_2 t).2
  unfold iblk2
  rw [View.read_apply]
  show V c main_v37 _ = V c main_v37 _
  refine congrArg (V c main_v37) (funext fun a => Fin.ext ?_)
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega
theorem idx2_3 : ∀ t : Fin cfg2.N, win2_3.index t (0 : Fin 2) = t.val ∧ win2_3.index t (1 : Fin 2) = 0 :=
  (by decide +kernel : ∀ t : Fin grid2.N, _)

/-- What point `t` writes back is block `t` of `scaleBias` of the arrays as the region finds them. -/
theorem flushed2 (c : Dev nD) (t : Fin cfg2.N) :
    (dat2 V c).flushed 3 t = ((cfg2.win 3).blk t).view.read (Elt Ideal)
      (scaleBias (V c main_v36) (V c main_v13) (V c main_v37)) := by
  show (cfg2.win 3).cut (grid2.coords t) ((dat2 V c).after 3 t) = _
  rw [after2_3]
  unfold out2_3
  rw [View.canon_unit_zero hz]
  simp only [View.ld_unit_zero (S := S5000x64) hz, View.ld_unit_zero (S := S5000x1) hz, View.ld_unit_zero (S := S1x64) hz]
  obtain ⟨e0, e1⟩ := idx2_3 t
  funext j
  obtain ⟨p, q, rfl⟩ : ∃ (p : Fin 5000) (q : Fin 64), j = ix2 p q := ⟨j 0, j 1, eq_ix2 j⟩
  rw [View.read_apply]
  refine scaleBias_rows (V c main_v36) (V c main_v13) (V c main_v37)
    (iblk2 V c 0 t) (iblk2 V c 1 t) (iblk2 V c 2 t) t.val
    (fun p k P hP => iblk2_0_apply V c t (ix2 p k) (ix2 P k) hP rfl)
    (fun p P hP => iblk2_1_apply V c t (ix2 p (0 : Fin 1)) (ix2 P (0 : Fin 1)) hP rfl)
    (fun k => iblk2_2_apply V c t (ix2 (0 : Fin 1) k))
    p q _ ?_ ?_
  · show win2_3.index t (0 : Fin 2) * 5000 + 1 * p.val = t.val * 5000 + p.val; rw [e0]; omega
  · show win2_3.index t (1 : Fin 2) * 64 + 1 * q.val = q.val; rw [e1]; omega

/-- An index of the result array is in point `t`'s block iff each coordinate is in the block's range on its axis. -/
theorem mem_blk2 (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v38).slice (win2_3.rect t)).set ↔ _
  rw [View.set_slice_whole, Rect.mem_set_unit]
  exact Iff.rfl

/-- The twenty blocks tile the result array: row `r` is in the block of point `r / 5000`. So the array ends holding the stage. -/
theorem final2 (c : Dev nD) : (dat2 V c).arrAt 3 cfg2.N = scaleBias (V c main_v36) (V c main_v13) (V c main_v37) :=
  (dat2 V c).arrAt_eq_of_cover 3 _ (fun t _ => flushed2 V c t) fun i => by
    have hi0 : (i 0).val < 100000 := (i 0).isLt
    have hi1 : (i 1).val < 64 := (i 1).isLt
    have hN : cfg2.N = 20 := N_2
    refine ⟨⟨(i 0).val / 5000, by rw [hN]; omega⟩, flush2_3 _, ?_⟩
    rw [mem_blk2]
    obtain ⟨e0, e1⟩ := idx2_3 ⟨(i 0).val / 5000, by rw [hN]; omega⟩
    intro a
    match a with
    | ⟨0, _⟩ => show win2_3.index _ (0 : Fin 2) * 5000 ≤ (i 0).val ∧ (i 0).val < win2_3.index _ (0 : Fin 2) * 5000 + 5000; rw [e0]; show (i 0).val / 5000 * 5000 ≤ _ ∧ _ < (i 0).val / 5000 * 5000 + 5000; omega
    | ⟨1, _⟩ => show win2_3.index _ (1 : Fin 2) * 64 ≤ (i 1).val ∧ (i 1).val < win2_3.index _ (1 : Fin 2) * 64 + 64; rw [e1]; omega

end Cert.KernelIdeal.Blocks

end
-- ==== Proof.Glue.lean ====
/-
  The host operations between the dense stages, and the whole program's result as one function of the arguments.

  The graph: `src` and `dst` list the 1600000 edges' endpoints; one self loop per node is appended. A node's out-
  and in-degree count its occurrences among the sources and the destinations, a scatter-add of ones; the two
  norms are their inverse square roots. A layer gathers, for every edge, the source node's row of features and adds
  it into the destination node's row. Both programs compute these with the same host operations; they are named
  here once, so that the comparison never opens them.
-/
import proofs.«126645_j71339406787240_2_alg».proof.KernelIdeal
import proofs.«126645_j71339406787240_2_alg».proof.Proof.Gen.KernelIdeal
import proofs.«126645_j71339406787240_2_alg».proof.Proof.Spec
import Idealize.ShloMosaic.PureOps.Ideal

noncomputable section

namespace Cert.KernelIdeal.Glue

open Cert.KernelIdeal Cert.KernelIdeal.Gen Cert.KernelIdeal.Spec Idealize.ShloMosaic

/-- An integer array of shape `s`. -/
abbrev I32s (s : Shape) : Type := (⟨s, .i32⟩ : BufTy).Contents (Elt Ideal)
/-- A float array of shape `s`, of extended reals. -/
abbrev F32s (s : Shape) : Type := (⟨s, .f32⟩ : BufTy).Contents (Elt Ideal)

/-- The edges' endpoints with one self loop per node appended. -/
def withLoops (a : I32s S1600000) : I32s S1700000 :=
  concatenate S1700000 0 [⟨S1600000, a⟩, ⟨S100000, iotaInDim S100000 32 0⟩] concatenates_S1600000_S100000_S1700000_d0

/-- A node's inverse square root of its degree: the number of the endpoints `e` that name it, a scatter-add of ones into zeros. -/
def norm (e : I32s S1700000) : F32s S100000 :=
  Host.rsqrt (F := Ideal) (Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 e)
    (broadcastInDim S1700000 ![] bcast_S_S1700000 (constant (F := Ideal) S_ .f32 0x3F800000#32)))

/-- A vector of per-node scales as a column. -/
def col (v : F32s S100000) : F32s S100000x1 := shapeCast S100000x1 v shapeCasts_S100000_S100000x1

/-- A bias vector as a row. -/
def row (v : F32s S64) : F32s S1x64 := shapeCast S1x64 v shapeCasts_S64_S1x64

/-- One round of message passing: for every edge the source's row of `h` (a negative source index wrapped once),
    added into the destination's row of zeros. -/
def aggregate (h : F32s S100000x64) (s d : I32s S1700000) : F32s S100000x64 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (Host.gather gather_S100000x64_S1700000x1_S1700000x64_1_0_n_n_0_1_164 h
      (broadcastInDim S1700000x1 ![0] bcast_S1700000_S1700000x1_0
        (select (cmpi CmpIPredicate.slt s (broadcastInDim S1700000 ![] bcast_S_S1700000 (constantI S_ 32 0#32)))
          (addi s (broadcastInDim S1700000 ![] bcast_S_S1700000 (constantI S_ 32 100000#32))) s)))

/-- The result with its leading unit axis. -/
def lift (o : F32s S100000x64) : F32s S1x100000x64 :=
  broadcastInDim S1x100000x64 ![1, 2] bcast_S100000x64_S1x100000x64_1_2 o

/-- The first layer's messages: `dense0` of the features, the first weights and the source norms. -/
def hidden1 (x : F32s S100000x32) (s : I32s S1600000) (w1 : F32s S32x64) : F32s S100000x64 :=
  dense0 x w1 (col (norm (withLoops s)))

/-- The second layer's messages: `dense1` of the first layer's aggregate. -/
def hidden2 (x : F32s S100000x32) (s d : I32s S1600000) (w1 : F32s S32x64) (b1 : F32s S64) (w2 : F32s S64x64) : F32s S100000x64 :=
  dense1 (aggregate (hidden1 x s w1) (withLoops s) (withLoops d)) (col (norm (withLoops d))) (row b1) w2 (col (norm (withLoops s)))

/-- The network's output before the unit axis: the second aggregate scaled by the destination norms, plus the bias. -/
def output (x : F32s S100000x32) (s d : I32s S1600000) (w1 : F32s S32x64) (b1 : F32s S64) (w2 : F32s S64x64) (b2 : F32s S64) : F32s S100000x64 :=
  scaleBias (aggregate (hidden2 x s d w1 b1 w2) (withLoops s) (withLoops d)) (col (norm (withLoops d))) (row b2)

end Cert.KernelIdeal.Glue

end
-- ==== Proof.Boundaries.lean ====
/-
  The buffer contents at every segment boundary of the kernel program, read back to the arguments.

  Going through @main in order: after the first host stretch the two endpoint lists carry their self loops and the
  two norm columns are there; the first region leaves the first layer's messages; the next stretch aggregates them
  and lays the first bias out as a row; the second region leaves the second layer's messages; the next stretch
  aggregates again and lays out the second bias; the third region leaves the output, and the last host operation
  gives it its leading unit axis. A buffer that a segment does not write keeps its contents through it: an
  argument, an input array of a region, a value of an earlier stretch read again later.
-/
import proofs.«126645_j71339406787240_2_alg».proof.Proof.Gen.KernelIdeal.Frame
import proofs.«126645_j71339406787240_2_alg».proof.Proof.Blocks0
import proofs.«126645_j71339406787240_2_alg».proof.Proof.Blocks1
import proofs.«126645_j71339406787240_2_alg».proof.Proof.Blocks2
import proofs.«126645_j71339406787240_2_alg».proof.Proof.Glue
import Idealize.ShloMosaic.Lib.StableHlo.Run

set_option maxRecDepth 16384

noncomputable section

namespace Cert.KernelIdeal.Bound

open Cert.KernelIdeal Cert.KernelIdeal.Gen Cert.KernelIdeal.Spec Cert.KernelIdeal.Glue Cert.KernelIdeal.Blocks
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch -/

/-- The sources with their self loops. -/
theorem W1_v1 (c : Dev nD) : W1 m ρ c (Proc.devRef .tc main_v1) = (withLoops (m ((c.tc : Thread nD τ).loc main_arg1))) := by
  dsimp only [W1, hostOps0]
  after_results
  rfl
/-- The destinations with their self loops. -/
theorem W1_v2 (c : Dev nD) : W1 m ρ c (Proc.devRef .tc main_v2) = (withLoops (m ((c.tc : Thread nD τ).loc main_arg2))) := by
  dsimp only [W1, hostOps0]
  after_results
  rfl
/-- The source norms as a column. -/
theorem W1_v11 (c : Dev nD) : W1 m ρ c (Proc.devRef .tc main_v11) = (col (norm (withLoops (m ((c.tc : Thread nD τ).loc main_arg1))))) := by
  dsimp only [W1, hostOps0]
  after_results
  rfl
/-- The destination norms as a column. -/
theorem W1_v13 (c : Dev nD) : W1 m ρ c (Proc.devRef .tc main_v13) = (col (norm (withLoops (m ((c.tc : Thread nD τ).loc main_arg2))))) := by
  dsimp only [W1, hostOps0]
  after_results
  rfl
/-- An argument is not written. -/
theorem W1_arg0 (c : Dev nD) : W1 m ρ c (Proc.devRef .tc main_arg0) = (m ((c.tc : Thread nD τ).loc main_arg0)) := by
  dsimp only [W1, hostOps0]
  after_results
/-- An argument is not written. -/
theorem W1_arg3 (c : Dev nD) : W1 m ρ c (Proc.devRef .tc main_arg3) = (m ((c.tc : Thread nD τ).loc main_arg3)) := by
  dsimp only [W1, hostOps0]
  after_results
/-- An argument is not written. -/
theorem W1_arg4 (c : Dev nD) : W1 m ρ c (Proc.devRef .tc main_arg4) = (m ((c.tc : Thread nD τ).loc main_arg4)) := by
  dsimp only [W1, hostOps0]
  after_results
/-- An argument is not written. -/
theorem W1_arg5 (c : Dev nD) : W1 m ρ c (Proc.devRef .tc main_arg5) = (m ((c.tc : Thread nD τ).loc main_arg5)) := by
  dsimp only [W1, hostOps0]
  after_results
/-- An argument is not written. -/
theorem W1_arg6 (c : Dev nD) : W1 m ρ c (Proc.devRef .tc main_arg6) = (m ((c.tc : Thread nD τ).loc main_arg6)) := by
  dsimp only [W1, hostOps0]
  after_results

/-! ## After the first region -/

/-- The first layer's messages. -/
theorem W2_v14 (c : Dev nD) : W2 m ρ c (Proc.devRef .tc main_v14) = (hidden1 (m ((c.tc : Thread nD τ).loc main_arg0)) (m ((c.tc : Thread nD τ).loc main_arg1)) (m ((c.tc : Thread nD τ).loc main_arg3))) :=
  (W2_arr m ρ c 3).trans ((final0 (V1 m ρ) c).trans (by
    show dense0 (W1 m ρ c (Proc.devRef .tc main_arg0)) (W1 m ρ c (Proc.devRef .tc main_arg3)) (W1 m ρ c (Proc.devRef .tc main_v11)) = _
    rw [W1_arg0 m ρ c, W1_arg3 m ρ c, W1_v11 m ρ c]
    rfl))
theorem W2_v11 (c : Dev nD) : W2 m ρ c (Proc.devRef .tc main_v11) = (col (norm (withLoops (m ((c.tc : Thread nD τ).loc main_arg1))))) :=
  (W2_arr m ρ c 2).trans (((dat0 (V1 m ρ) c).arrAt_in 2 rfl _).trans ((A_eq0 (V1 m ρ) c 2).trans (W1_v11 m ρ c)))
theorem W2_v1 (c : Dev nD) : W2 m ρ c (Proc.devRef .tc main_v1) = (withLoops (m ((c.tc : Thread nD τ).loc main_arg1))) :=
  (W2_of_ne m ρ c main_v1 (by decide)).trans (W1_v1 m ρ c)
theorem W2_v2 (c : Dev nD) : W2 m ρ c (Proc.devRef .tc main_v2) = (withLoops (m ((c.tc : Thread nD τ).loc main_arg2))) :=
  (W2_of_ne m ρ c main_v2 (by decide)).trans (W1_v2 m ρ c)
theorem W2_v13 (c : Dev nD) : W2 m ρ c (Proc.devRef .tc main_v13) = (col (norm (withLoops (m ((c.tc : Thread nD τ).loc main_arg2))))) :=
  (W2_of_ne m ρ c main_v13 (by decide)).trans (W1_v13 m ρ c)
theorem W2_arg4 (c : Dev nD) : W2 m ρ c (Proc.devRef .tc main_arg4) = (m ((c.tc : Thread nD τ).loc main_arg4)) :=
  (W2_of_ne m ρ c main_arg4 (by decide)).trans (W1_arg4 m ρ c)
theorem W2_arg5 (c : Dev nD) : W2 m ρ c (Proc.devRef .tc main_arg5) = (m ((c.tc : Thread nD τ).loc main_arg5)) :=
  (W2_of_ne m ρ c main_arg5 (by decide)).trans (W1_arg5 m ρ c)
theorem W2_arg6 (c : Dev nD) : W2 m ρ c (Proc.devRef .tc main_arg6) = (m ((c.tc : Thread nD τ).loc main_arg6)) :=
  (W2_of_ne m ρ c main_arg6 (by decide)).trans (W1_arg6 m ρ c)

/-! ## After the second host stretch -/

set_option maxHeartbeats 2000000 in
/-- The first layer's aggregate. -/
theorem W3_v24 (c : Dev nD) : W3 m ρ c (Proc.devRef .tc main_v24) = (aggregate (hidden1 (m ((c.tc : Thread nD τ).loc main_arg0)) (m ((c.tc : Thread nD τ).loc main_arg1)) (m ((c.tc : Thread nD τ).loc main_arg3))) (withLoops (m ((c.tc : Thread nD τ).loc main_arg1))) (withLoops (m ((c.tc : Thread nD τ).loc main_arg2)))) := by
  dsimp only [W3, hostOps1]
  after_results
  rw [W2_v2 m ρ c, W2_v14 m ρ c, W2_v1 m ρ c]
  rfl
/-- The first bias as a row. -/
theorem W3_v25 (c : Dev nD) : W3 m ρ c (Proc.devRef .tc main_v25) = (row (m ((c.tc : Thread nD τ).loc main_arg4))) := by
  dsimp only [W3, hostOps1]
  after_results
  rw [W2_arg4 m ρ c]
  rfl
/-- Not written by this stretch. -/
theorem W3_v13 (c : Dev nD) : W3 m ρ c (Proc.devRef .tc main_v13) = (col (norm (withLoops (m ((c.tc : Thread nD τ).loc main_arg2))))) := by
  dsimp only [W3, hostOps1]
  after_results
  rw [W2_v13 m ρ c]
/-- Not written by this stretch. -/
theorem W3_arg5 (c : Dev nD) : W3 m ρ c (Proc.devRef .tc main_arg5) = (m ((c.tc : Thread nD τ).loc main_arg5)) := by
  dsimp only [W3, hostOps1]
  after_results
  rw [W2_arg5 m ρ c]
/-- Not written by this stretch. -/
theorem W3_v11 (c : Dev nD) : W3 m ρ c (Proc.devRef .tc main_v11) = (col (norm (withLoops (m ((c.tc : Thread nD τ).loc main_arg1))))) := by
  dsimp only [W3, hostOps1]
  after_results
  rw [W2_v11 m ρ c]
/-- Not written by this stretch. -/
theorem W3_v1 (c : Dev nD) : W3 m ρ c (Proc.devRef .tc main_v1) = (withLoops (m ((c.tc : Thread nD τ).loc main_arg1))) := by
  dsimp only [W3, hostOps1]
  after_results
  rw [W2_v1 m ρ c]
/-- Not written by this stretch. -/
theorem W3_v2 (c : Dev nD) : W3 m ρ c (Proc.devRef .tc main_v2) = (withLoops (m ((c.tc : Thread nD τ).loc main_arg2))) := by
  dsimp only [W3, hostOps1]
  after_results
  rw [W2_v2 m ρ c]
/-- Not written by this stretch. -/
theorem W3_arg6 (c : Dev nD) : W3 m ρ c (Proc.devRef .tc main_arg6) = (m ((c.tc : Thread nD τ).loc main_arg6)) := by
  dsimp only [W3, hostOps1]
  after_results
  rw [W2_arg6 m ρ c]

/-! ## After the second region -/

/-- The second layer's messages. -/
theorem W4_v26 (c : Dev nD) : W4 m ρ c (Proc.devRef .tc main_v26) = (hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :=
  (W4_arr m ρ c 5).trans ((final1 (V3 m ρ) c).trans (by
    show dense1 (W3 m ρ c (Proc.devRef .tc main_v24)) (W3 m ρ c (Proc.devRef .tc main_v13)) (W3 m ρ c (Proc.devRef .tc main_v25)) (W3 m ρ c (Proc.devRef .tc main_arg5)) (W3 m ρ c (Proc.devRef .tc main_v11)) = _
    rw [W3_v24 m ρ c, W3_v13 m ρ c, W3_v25 m ρ c, W3_arg5 m ρ c, W3_v11 m ρ c]
    rfl))
theorem W4_v13 (c : Dev nD) : W4 m ρ c (Proc.devRef .tc main_v13) = (col (norm (withLoops (m ((c.tc : Thread nD τ).loc main_arg2))))) :=
  (W4_arr m ρ c 1).trans (((dat1 (V3 m ρ) c).arrAt_in 1 rfl _).trans ((A_eq1 (V3 m ρ) c 1).trans (W3_v13 m ρ c)))
theorem W4_v1 (c : Dev nD) : W4 m ρ c (Proc.devRef .tc main_v1) = (withLoops (m ((c.tc : Thread nD τ).loc main_arg1))) :=
  (W4_of_ne m ρ c main_v1 (by decide)).trans (W3_v1 m ρ c)
theorem W4_v2 (c : Dev nD) : W4 m ρ c (Proc.devRef .tc main_v2) = (withLoops (m ((c.tc : Thread nD τ).loc main_arg2))) :=
  (W4_of_ne m ρ c main_v2 (by decide)).trans (W3_v2 m ρ c)
theorem W4_arg6 (c : Dev nD) : W4 m ρ c (Proc.devRef .tc main_arg6) = (m ((c.tc : Thread nD τ).loc main_arg6)) :=
  (W4_of_ne m ρ c main_arg6 (by decide)).trans (W3_arg6 m ρ c)

/-! ## After the third host stretch -/

set_option maxHeartbeats 2000000 in
/-- The second layer's aggregate. -/
theorem W5_v36 (c : Dev nD) : W5 m ρ c (Proc.devRef .tc main_v36) = (aggregate (hidden2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) (withLoops (m ((c.tc : Thread nD τ).loc main_arg1))) (withLoops (m ((c.tc : Thread nD τ).loc main_arg2)))) := by
  dsimp only [W5, hostOps2]
  after_results
  rw [W4_v2 m ρ c, W4_v26 m ρ c, W4_v1 m ρ c]
  rfl
/-- The second bias as a row. -/
theorem W5_v37 (c : Dev nD) : W5 m ρ c (Proc.devRef .tc main_v37) = (row (m ((c.tc : Thread nD τ).loc main_arg6))) := by
  dsimp only [W5, hostOps2]
  after_results
  rw [W4_arg6 m ρ c]
  rfl
/-- Not written by this stretch. -/
theorem W5_v13 (c : Dev nD) : W5 m ρ c (Proc.devRef .tc main_v13) = (col (norm (withLoops (m ((c.tc : Thread nD τ).loc main_arg2))))) := by
  dsimp only [W5, hostOps2]
  after_results
  rw [W4_v13 m ρ c]

/-! ## After the third region, and at the return -/

/-- The output. -/
theorem W6_v38 (c : Dev nD) : W6 m ρ c (Proc.devRef .tc main_v38) = (output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (W6_arr m ρ c 3).trans ((final2 (V5 m ρ) c).trans (by
    show scaleBias (W5 m ρ c (Proc.devRef .tc main_v36)) (W5 m ρ c (Proc.devRef .tc main_v13)) (W5 m ρ c (Proc.devRef .tc main_v37)) = _
    rw [W5_v36 m ρ c, W5_v13 m ρ c, W5_v37 m ρ c]
    rfl))

/-- The result buffer at the return: the output with its leading unit axis. -/
theorem W7_v39 (c : Dev nD) : W7 m ρ c (Proc.devRef .tc main_v39) = (lift (output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))) := by
  dsimp only [W7, hostOps3]
  after_results
  rw [W6_v38 m ρ c]
  rfl

end Cert.KernelIdeal.Bound

end
-- ==== Proof.RefSide.lean ====
/-
  The reference program's result is the same function of the arguments.

  The reference computes each dense stage on whole arrays: a matrix product of all 100000 rows, the norm vector
  spread over the 64 columns, the bias vector spread over the rows, the clamp against a splat of zero. Read at an
  entry (p, q) each is the entry of `dense0`, `dense1`, `scaleBias`: the product is the sum over the contracted
  axis, a spread column read at (p, q) is the vector at p, a spread row the vector at q. The host operations
  between the stages are the kernel program's own, so the two results are one function of the arguments.
-/
import proofs.«126645_j71339406787240_2_alg».proof.Proof.Gen.ReferenceIdeal.Run
import proofs.«126645_j71339406787240_2_alg».proof.Proof.Gen.ReferenceIdeal.Read
import proofs.«126645_j71339406787240_2_alg».proof.Proof.Glue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Hand

open Cert.ReferenceIdeal Cert.ReferenceIdeal.Gen
open Cert.KernelIdeal.Spec Cert.KernelIdeal.Glue
open Idealize.ShloMosaic Idealize.ShloMosaic.ValueIdx

local notation "dotA" => dot_S100000x32_S32x64_S100000x64_1_0_0_1_n_n
local notation "dotB" => dot_S100000x64_S64x64_S100000x64_1_0_0_1_n_n

/-! ## The reference's operations read at an entry -/

/-- An `[a]` vector cast to a column `[a, 1]` reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu]; omega)

/-- The 100000×32 by 32×64 product at entry i: the sum over the 32 contracted columns. -/
theorem dotA_apply (x : FVec Ideal S100000x32 .f32) (w : FVec Ideal S32x64 .f32) (i : S100000x64.Idx) :
    Host.dotGeneral (F := Ideal) dotA none x w i
      = ∑ k : Fin 32, x (ix2 (⟨(i 0).val, (i 0).isLt⟩ : Fin 100000) k) * w (ix2 k (⟨(i 1).val, (i 1).isLt⟩ : Fin 64)) := by
  simp only [Host.dotGeneral]
  rw [Ideal.dotGeneral_apply, ← Equiv.sum_comp (contrEquiv1 dotA 32 rfl rfl).symm]
  refine Finset.sum_congr rfl fun k _ => ?_
  have hk := contrEquiv1_symm_val dotA 32 rfl rfl k
  have el : (dotA).lhsIdx i ((contrEquiv1 dotA 32 rfl rfl).symm k) = ix2 (⟨(i 0).val, (i 0).isLt⟩ : Fin 100000) k := funext fun a => Fin.ext (by
    match a with
    | ⟨0, _⟩ => exact Read.lhs_main_v12_0 _ _
    | ⟨1, _⟩ => exact (Read.lhs_main_v12_1 _ _).trans hk)
  have er : (dotA).rhsIdx i ((contrEquiv1 dotA 32 rfl rfl).symm k) = ix2 k (⟨(i 1).val, (i 1).isLt⟩ : Fin 64) := funext fun a => Fin.ext (by
    match a with
    | ⟨0, _⟩ => exact (Read.rhs_main_v12_0 _ _).trans hk
    | ⟨1, _⟩ => exact Read.rhs_main_v12_1 _ _)
  rw [el, er]

/-- The 100000×64 by 64×64 product at entry i: the sum over the 64 contracted columns. -/
theorem dotB_apply (a : FVec Ideal S100000x64 .f32) (w : FVec Ideal S64x64 .f32) (i : S100000x64.Idx) :
    Host.dotGeneral (F := Ideal) dotB none a w i
      = ∑ k : Fin 64, a (ix2 (⟨(i 0).val, (i 0).isLt⟩ : Fin 100000) k) * w (ix2 k (⟨(i 1).val, (i 1).isLt⟩ : Fin 64)) := by
  simp only [Host.dotGeneral]
  rw [Ideal.dotGeneral_apply, ← Equiv.sum_comp (contrEquiv1 dotB 64 rfl rfl).symm]
  refine Finset.sum_congr rfl fun k _ => ?_
  have hk := contrEquiv1_symm_val dotB 64 rfl rfl k
  have el : (dotB).lhsIdx i ((contrEquiv1 dotB 64 rfl rfl).symm k) = ix2 (⟨(i 0).val, (i 0).isLt⟩ : Fin 100000) k := funext fun a => Fin.ext (by
    match a with
    | ⟨0, _⟩ => exact Read.lhs_main_v33_0 _ _
    | ⟨1, _⟩ => exact (Read.lhs_main_v33_1 _ _).trans hk)
  have er : (dotB).rhsIdx i ((contrEquiv1 dotB 64 rfl rfl).symm k) = ix2 k (⟨(i 1).val, (i 1).isLt⟩ : Fin 64) := funext fun a => Fin.ext (by
    match a with
    | ⟨0, _⟩ => exact (Read.rhs_main_v33_0 _ _).trans hk
    | ⟨1, _⟩ => exact Read.rhs_main_v33_1 _ _)
  rw [el, er]

/-- A per-node vector spread over the 64 columns, at entry i: the vector as a column, at i's row. -/
theorem spreadCol_apply (n : FVec Ideal S100000 .f32) (i : S100000x64.Idx) :
    broadcastInDim S100000x64 ![0, 1] bcast_S100000x1_S100000x64_0_1 (broadcastInDim S100000x1 ![0] bcast_S100000_S100000x1_0 n) i
      = col n (ix2 (⟨(i 0).val, (i 0).isLt⟩ : Fin 100000) (0 : Fin 1)) := by
  rw [broadcastInDim_apply _ bcast_S100000x1_S100000x64_0_1 _ i (ix2 (⟨(i 0).val, (i 0).isLt⟩ : Fin 100000) (0 : Fin 1)) (fun a => match a with
      | ⟨0, _⟩ => by show (i 0).val = if (100000 : Nat) = 1 then 0 else (i 0).val; rw [if_neg (by decide)]
      | ⟨1, _⟩ => by show (0 : Nat) = if (1 : Nat) = 1 then 0 else (i 1).val; rw [if_pos rfl]),
    broadcastInDim_apply _ bcast_S100000_S100000x1_0 n _ (ix1 (⟨(i 0).val, (i 0).isLt⟩ : Fin 100000)) (fun a => match a with
      | ⟨0, _⟩ => by show (i 0).val = if (100000 : Nat) = 1 then 0 else (i 0).val; rw [if_neg (by decide)])]
  exact (shapeCast_a_a1_apply n _ _ _).symm

/-- A bias vector spread over the rows, at entry i: the vector as a row, at i's column. -/
theorem spreadRow_apply (b : FVec Ideal S64 .f32) (i : S100000x64.Idx) :
    broadcastInDim S100000x64 ![0, 1] bcast_S1x64_S100000x64_0_1 (broadcastInDim S1x64 ![1] bcast_S64_S1x64_1 b) i
      = row b (ix2 (0 : Fin 1) (⟨(i 1).val, (i 1).isLt⟩ : Fin 64)) := by
  rw [broadcastInDim_apply _ bcast_S1x64_S100000x64_0_1 _ i (ix2 (0 : Fin 1) (⟨(i 1).val, (i 1).isLt⟩ : Fin 64)) (fun a => match a with
      | ⟨0, _⟩ => by show (0 : Nat) = if (1 : Nat) = 1 then 0 else (i 0).val; rw [if_pos rfl]
      | ⟨1, _⟩ => by show (i 1).val = if (64 : Nat) = 1 then 0 else (i 1).val; rw [if_neg (by decide)]),
    broadcastInDim_apply _ bcast_S64_S1x64_1 b _ (ix1 (⟨(i 1).val, (i 1).isLt⟩ : Fin 64)) (fun a => match a with
      | ⟨0, _⟩ => by show (i 1).val = if (64 : Nat) = 1 then 0 else (i 1).val; rw [if_neg (by decide)])]
  exact (shapeCast_a_1a_apply b _ _ _).symm

/-- The splat of zero at any entry is the printed zero. -/
theorem zeros_apply (i : S100000x64.Idx) :
    broadcastInDim S100000x64 ![] bcast_S_S100000x64 (constant (F := Ideal) S_ .f32 0x00000000#32) i = zeroW :=
  broadcastInDim_apply _ bcast_S_S100000x64 _ i ix0 (fun a => a.elim0)

/-! ## The reference's three dense stages, as it computes them -/

/-- The features times the first weights, times the spread source norms. -/
def refDense0 (x : FVec Ideal S100000x32 .f32) (w : FVec Ideal S32x64 .f32) (n : FVec Ideal S100000 .f32) : FVec Ideal S100000x64 .f32 :=
  mulf (F := Ideal) (Host.dotGeneral (F := Ideal) dotA none x w)
    (broadcastInDim S100000x64 ![0, 1] bcast_S100000x1_S100000x64_0_1 (broadcastInDim S100000x1 ![0] bcast_S100000_S100000x1_0 n))

/-- The aggregate times the spread destination norms plus the spread bias, clamped at zero, times the second weights,
    times the spread source norms. -/
def refDense1 (a : FVec Ideal S100000x64 .f32) (nd : FVec Ideal S100000 .f32) (b : FVec Ideal S64 .f32) (w : FVec Ideal S64x64 .f32) (ns : FVec Ideal S100000 .f32) : FVec Ideal S100000x64 .f32 :=
  mulf (F := Ideal) (Host.dotGeneral (F := Ideal) dotB none
      (maximumf (F := Ideal) (addf (F := Ideal) (mulf (F := Ideal) a
          (broadcastInDim S100000x64 ![0, 1] bcast_S100000x1_S100000x64_0_1 (broadcastInDim S100000x1 ![0] bcast_S100000_S100000x1_0 nd)))
          (broadcastInDim S100000x64 ![0, 1] bcast_S1x64_S100000x64_0_1 (broadcastInDim S1x64 ![1] bcast_S64_S1x64_1 b)))
        (broadcastInDim S100000x64 ![] bcast_S_S100000x64 (constant (F := Ideal) S_ .f32 0x00000000#32))) w)
    (broadcastInDim S100000x64 ![0, 1] bcast_S100000x1_S100000x64_0_1 (broadcastInDim S100000x1 ![0] bcast_S100000_S100000x1_0 ns))

/-- The aggregate times the spread destination norms plus the spread bias. -/
def refScaleBias (a : FVec Ideal S100000x64 .f32) (nd : FVec Ideal S100000 .f32) (b : FVec Ideal S64 .f32) : FVec Ideal S100000x64 .f32 :=
  addf (F := Ideal) (mulf (F := Ideal) a
      (broadcastInDim S100000x64 ![0, 1] bcast_S100000x1_S100000x64_0_1 (broadcastInDim S100000x1 ![0] bcast_S100000_S100000x1_0 nd)))
    (broadcastInDim S100000x64 ![0, 1] bcast_S1x64_S100000x64_0_1 (broadcastInDim S1x64 ![1] bcast_S64_S1x64_1 b))

theorem refDense0_eq (x : FVec Ideal S100000x32 .f32) (w : FVec Ideal S32x64 .f32) (n : FVec Ideal S100000 .f32) : refDense0 x w n = dense0 x w (col n) := by
  funext i
  show Host.dotGeneral (F := Ideal) dotA none x w i
      * broadcastInDim S100000x64 ![0, 1] bcast_S100000x1_S100000x64_0_1 (broadcastInDim S100000x1 ![0] bcast_S100000_S100000x1_0 n) i = _
  rw [dotA_apply, spreadCol_apply]
  rfl

theorem refDense1_eq (a : FVec Ideal S100000x64 .f32) (nd : FVec Ideal S100000 .f32) (b : FVec Ideal S64 .f32) (w : FVec Ideal S64x64 .f32) (ns : FVec Ideal S100000 .f32) :
    refDense1 a nd b w ns = dense1 a (col nd) (row b) w (col ns) := by
  funext i
  show Host.dotGeneral (F := Ideal) dotB none
        (maximumf (F := Ideal) (addf (F := Ideal) (mulf (F := Ideal) a
            (broadcastInDim S100000x64 ![0, 1] bcast_S100000x1_S100000x64_0_1 (broadcastInDim S100000x1 ![0] bcast_S100000_S100000x1_0 nd)))
            (broadcastInDim S100000x64 ![0, 1] bcast_S1x64_S100000x64_0_1 (broadcastInDim S1x64 ![1] bcast_S64_S1x64_1 b)))
          (broadcastInDim S100000x64 ![] bcast_S_S100000x64 (constant (F := Ideal) S_ .f32 0x00000000#32))) w i
      * broadcastInDim S100000x64 ![0, 1] bcast_S100000x1_S100000x64_0_1 (broadcastInDim S100000x1 ![0] bcast_S100000_S100000x1_0 ns) i = _
  rw [dotB_apply, spreadCol_apply]
  refine congrArg (· * col ns (ix2 (⟨(i 0).val, (i 0).isLt⟩ : Fin 100000) (0 : Fin 1))) (Finset.sum_congr rfl fun k _ => ?_)
  show max (a (ix2 (⟨(i 0).val, (i 0).isLt⟩ : Fin 100000) k)
        * broadcastInDim S100000x64 ![0, 1] bcast_S100000x1_S100000x64_0_1 (broadcastInDim S100000x1 ![0] bcast_S100000_S100000x1_0 nd) (ix2 (⟨(i 0).val, (i 0).isLt⟩ : Fin 100000) k)
        + broadcastInDim S100000x64 ![0, 1] bcast_S1x64_S100000x64_0_1 (broadcastInDim S1x64 ![1] bcast_S64_S1x64_1 b) (ix2 (⟨(i 0).val, (i 0).isLt⟩ : Fin 100000) k))
      (broadcastInDim S100000x64 ![] bcast_S_S100000x64 (constant (F := Ideal) S_ .f32 0x00000000#32) (ix2 (⟨(i 0).val, (i 0).isLt⟩ : Fin 100000) k))
      * w (ix2 k (⟨(i 1).val, (i 1).isLt⟩ : Fin 64)) = _
  rw [spreadCol_apply, spreadRow_apply, zeros_apply]

theorem refScaleBias_eq (a : FVec Ideal S100000x64 .f32) (nd : FVec Ideal S100000 .f32) (b : FVec Ideal S64 .f32) : refScaleBias a nd b = scaleBias a (col nd) (row b) := by
  funext i
  show a i * broadcastInDim S100000x64 ![0, 1] bcast_S100000x1_S100000x64_0_1 (broadcastInDim S100000x1 ![0] bcast_S100000_S100000x1_0 nd) i
      + broadcastInDim S100000x64 ![0, 1] bcast_S1x64_S100000x64_0_1 (broadcastInDim S1x64 ![1] bcast_S64_S1x64_1 b) i = _
  rw [spreadCol_apply, spreadRow_apply]
  show _ = scaleBiasAt a (col nd) (row b) _ _
  unfold scaleBiasAt
  exact congrArg (fun z => a z * col nd (ix2 (⟨(i 0).val, (i 0).isLt⟩ : Fin 100000) (0 : Fin 1))
    + row b (ix2 (0 : Fin 1) (⟨(i 1).val, (i 1).isLt⟩ : Fin 64))) (eq_ix2 i)

/-! ## The host operations between the stages, as the reference prints them -/

/-- The edges' endpoints with one self loop per node appended. -/
def rWithLoops (a : (⟨S1600000, .i32⟩ : BufTy).Contents (Elt Ideal)) : (⟨S1700000, .i32⟩ : BufTy).Contents (Elt Ideal) :=
  concatenate S1700000 0 [⟨S1600000, a⟩, ⟨S100000, iotaInDim S100000 32 0⟩] concatenates_S1600000_S100000_S1700000_d0

/-- A node's inverse square root of its degree among the endpoints `e`. -/
def rNorm (e : (⟨S1700000, .i32⟩ : BufTy).Contents (Elt Ideal)) : FVec Ideal S100000 .f32 :=
  Host.rsqrt (F := Ideal) (Host.scatterAdd (F := Ideal) scatter_S100000_S1700000x1_S1700000_n_0_0_1
    (broadcastInDim S100000 ![] bcast_S_S100000 (constant (F := Ideal) S_ .f32 0x00000000#32))
    (broadcastInDim S1700000x1 ![0] bcast_S1700000_S1700000x1_0 e)
    (broadcastInDim S1700000 ![] bcast_S_S1700000 (constant (F := Ideal) S_ .f32 0x3F800000#32)))

/-- One round of message passing. -/
def rAggregate (h : FVec Ideal S100000x64 .f32) (s d : (⟨S1700000, .i32⟩ : BufTy).Contents (Elt Ideal)) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (broadcastInDim S1700000x1 ![0] bcast_S1700000_S1700000x1_0 d)
    (Host.gather gather_S100000x64_S1700000x1_S1700000x64_1_0_n_n_0_1_164 h
      (broadcastInDim S1700000x1 ![0] bcast_S1700000_S1700000x1_0
        (select (cmpi CmpIPredicate.slt s (broadcastInDim S1700000 ![] bcast_S_S1700000 (constantI S_ 32 0#32)))
          (addi s (broadcastInDim S1700000 ![] bcast_S_S1700000 (constantI S_ 32 100000#32))) s)))

/-- The result with its leading unit axis. -/
def rLift (o : FVec Ideal S100000x64 .f32) : FVec Ideal S1x100000x64 .f32 :=
  broadcastInDim S1x100000x64 ![1, 2] bcast_S100000x64_S1x100000x64_1_2 o

/-- The two programs print the same host operations. -/
theorem rWithLoops_eq (a : (⟨S1600000, .i32⟩ : BufTy).Contents (Elt Ideal)) : rWithLoops a = withLoops a := rfl
theorem rNorm_eq (e : (⟨S1700000, .i32⟩ : BufTy).Contents (Elt Ideal)) : rNorm e = norm e := rfl
theorem rAggregate_eq (h : FVec Ideal S100000x64 .f32) (s d : (⟨S1700000, .i32⟩ : BufTy).Contents (Elt Ideal)) :
    rAggregate h s d = aggregate h s d := rfl
theorem rLift_eq (o : FVec Ideal S100000x64 .f32) : rLift o = lift o := rfl

/-! ## The reference's result -/

variable (m : (ℓ : Loc nD τ sig) → Buf (Elt Ideal) ℓ)

set_option maxRecDepth 65536 in
/-- The reference's result term is its three dense stages around the host operations. -/
theorem res_eq_stages (c : Dev nD) :
    Cert.ReferenceIdeal.Value.res_main_v53 (F := Ideal) m c
      = rLift (refScaleBias
          (rAggregate
            (refDense1
              (rAggregate (refDense0 (m ((c.tc : Thread nD τ).loc main_arg0)) (m ((c.tc : Thread nD τ).loc main_arg3)) (rNorm (rWithLoops (m ((c.tc : Thread nD τ).loc main_arg1)))))
                (rWithLoops (m ((c.tc : Thread nD τ).loc main_arg1))) (rWithLoops (m ((c.tc : Thread nD τ).loc main_arg2))))
              (rNorm (rWithLoops (m ((c.tc : Thread nD τ).loc main_arg2)))) (m ((c.tc : Thread nD τ).loc main_arg4)) (m ((c.tc : Thread nD τ).loc main_arg5))
              (rNorm (rWithLoops (m ((c.tc : Thread nD τ).loc main_arg1)))))
            (rWithLoops (m ((c.tc : Thread nD τ).loc main_arg1))) (rWithLoops (m ((c.tc : Thread nD τ).loc main_arg2))))
          (rNorm (rWithLoops (m ((c.tc : Thread nD τ).loc main_arg2)))) (m ((c.tc : Thread nD τ).loc main_arg6))) := rfl

/-- The reference's result is the network's output, of its own arguments. -/
theorem res_eq_output (c : Dev nD) :
    Cert.ReferenceIdeal.Value.res_main_v53 (F := Ideal) m c
      = lift (output (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  rw [res_eq_stages, refScaleBias_eq, refDense1_eq, refDense0_eq, rLift_eq]
  simp only [rAggregate_eq, rNorm_eq, rWithLoops_eq]
  rfl

end Cert.ReferenceIdeal.Hand

end
-- ==== Proof.lean ====
/-
  A two-layer graph convolution, tiled over 20 blocks of 5000 nodes in three pipelined kernels, against its plain
  reference, on the extended reals.

  Both programs normalise by the inverse square roots of the out- and in-degrees (self loops added), and in each layer
  multiply the features by the weights, scale by the source norm, gather along the edges and add into the
  destinations, scale by the destination norm and add the bias, with a clamp at zero between the layers. The kernel
  program computes the three dense stages block by block (a change of float format is the identity here, and a
  product into a zero accumulator is the plain sum); the reference computes them on whole arrays. Entry by entry
  the stages are the same sums and products in the same order, so no law of arithmetic is needed and the
  precondition is never opened; the sparse gather and scatter-add are the same host operations in both programs.

  * `Spec`      — the three dense stages as functions of whole arrays, entry by entry;
  * `Payload`   — what each kernel body stores at an entry, and a block of rows of each stage;
  * `Blocks0/1/2` — per region: each window's block as rows of its array, what a point writes back, the cover;
  * `Glue`      — the shared host operations, and the network's output as one function of the arguments;
  * `KernelRun`, `Boundaries` — the kernel program's run, and its buffers at every segment boundary;
  * `RefSide`   — the reference's result is the same function.
-/
import proofs.«126645_j71339406787240_2_alg».proof.Defs
import proofs.«126645_j71339406787240_2_alg».proof.Proof.Gen.Kernel
import proofs.«126645_j71339406787240_2_alg».proof.Proof.Gen.Kernel.Skeleton
import proofs.«126645_j71339406787240_2_alg».proof.Proof.Gen.Kernel.Launch
import proofs.«126645_j71339406787240_2_alg».proof.Proof.Gen.Kernel.Points
import proofs.«126645_j71339406787240_2_alg».proof.Proof.Gen.Kernel.Frame
import proofs.«126645_j71339406787240_2_alg».proof.Proof.Gen.KernelIdeal
import proofs.«126645_j71339406787240_2_alg».proof.Proof.Gen.KernelIdeal.Skeleton
import proofs.«126645_j71339406787240_2_alg».proof.Proof.Gen.KernelIdeal.Launch
import proofs.«126645_j71339406787240_2_alg».proof.Proof.Gen.KernelIdeal.Points
import proofs.«126645_j71339406787240_2_alg».proof.Proof.Gen.KernelIdeal.Frame
import proofs.«126645_j71339406787240_2_alg».proof.Proof.Gen.ReferenceIdeal
import proofs.«126645_j71339406787240_2_alg».proof.Proof.Gen.Pre_finite_inputs
import proofs.«126645_j71339406787240_2_alg».proof.Proof.Gen.ReferenceIdeal.Run
import proofs.«126645_j71339406787240_2_alg».proof.Proof.Gen.ReferenceIdeal.Read
import proofs.«126645_j71339406787240_2_alg».proof.Proof.KernelRun
import proofs.«126645_j71339406787240_2_alg».proof.Proof.Boundaries
import proofs.«126645_j71339406787240_2_alg».proof.Proof.RefSide
import Idealize.ShloMosaic.Adequacy
import Idealize.ShloMosaic.Init

noncomputable section

namespace Cert.Proof

open Idealize.ShloMosaic Idealize.SL.Sem

/-- The kernel program as printed runs and leaves its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its generated run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the network's output of those arguments. -/
theorem algebraic : Cert.algebraic_KernelIdeal_ReferenceIdeal := by
  intro m ρ m' ρ' _ hagree
  refine ⟨fun c => Cert.KernelIdeal.Glue.lift (Cert.KernelIdeal.Glue.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · exact (θ_run Cert.KernelIdeal.defs _ _).mono
      (fun _ h c => ⟨(h c).1.trans (Cert.KernelIdeal.Bound.W7_v39 m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Hand.res_eq_output m' c]
    obtain ⟨e0, e1, e2, e3, e4, e5, e6⟩ := hagree c
    rw [e0, e1, e2, e3, e4, e5, e6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
